-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S8x2048x2048 : Shape := ⟨3, ![8, 2048, 2048]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn_part1 {F : FTy → Type} [FloatOps F] (main_v13 : IVec S_ 1) (main_v16 : IVec S8x2048x2048 1) : IVec S_ 1 :=
  let main_c_5 : IVec S_ 1 := constantI S_ 1 1#1
  let main_v17 : IVec S_ 1 := (fun x v => Host.reduce IntOp.andi x v reducesTo_S8x2048x2048_S_d0_1_2 h_S_) main_v16 main_c_5
  let main_v18 : IVec S_ 1 := andi main_v13 main_v17
  main_v18

def fn {F : FTy → Type} [FloatOps F] (main_arg0 : FVec F S4x8x2048x64 .f32) (main_arg1 : FVec F S4x8x2048x64 .f32) (main_arg2 : FVec F S4x8x2048x64 .f32) (main_arg3 : FVec F S8x2048x2048 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  let main_v14 : FVec F S8x2048x2048 .f32 := Host.absf main_arg3
  let main_cst_4 : FVec F S_ .f32 := constant S_ .f32 0x7F800000#32
  let main_v15 : FVec F S8x2048x2048 .f32 := broadcastInDim S8x2048x2048 ![] bcast_S_S8x2048x2048 main_cst_4
  let main_v16 : IVec S8x2048x2048 1 := cmpf .olt main_v14 main_v15
  fn_part1 (F := F) main_v13 main_v16
-- ==== Kernel.lean ====
abbrev S4x8x2048x64 : Shape := ⟨4, ![4, 8, 2048, 64]⟩
abbrev S8x2048x2048 : Shape := ⟨3, ![8, 2048, 2048]⟩
abbrev S4x8x2048x2048 : Shape := ⟨4, ![4, 8, 2048, 2048]⟩
abbrev S1x1x512x64 : Shape := ⟨4, ![1, 1, 512, 64]⟩
abbrev S1x1x2048x64 : Shape := ⟨4, ![1, 1, 2048, 64]⟩
abbrev S1x512x2048 : Shape := ⟨3, ![1, 512, 2048]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S64x2048 : Shape := ⟨2, ![64, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S8x2048x2048, .f32⟩
  | .hbm, ⟨4, _⟩ => ⟨S4x8x2048x64, .f32⟩
  | .hbm, ⟨5, _⟩ => ⟨S4x8x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x512x2048, .f32⟩
  | .local _ .vmem, ⟨7, _⟩ => ⟨S1x512x2048, .f32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  broadcasts_S512x1_S512x64 : S512x1.Broadcasts S512x64
  shapeCasts_S512x64_S1x1x512x64 : S512x64.ShapeCasts S1x1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x8x2048x64.size a
  hwx0_0 : ∀ i : grid0.Coords, EltTy.bits .f32 = 32 ∨ (Rect.block (s := S4x8x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x8x2048x64.size a
  hwx0_1 : ∀ i : grid0.Coords, EltTy.bits .f32 = 32 ∨ (Rect.block (s := S4x8x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x8x2048x64.size a
  hwx0_2 : ∀ i : grid0.Coords, EltTy.bits .f32 = 32 ∨ (Rect.block (s := S4x8x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .f32 = 32 ∨ (Rect.block (s := S8x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x8x2048x64.size a
  hwx0_4 : ∀ i : grid0.Coords, EltTy.bits .f32 = 32 ∨ (Rect.block (s := S4x8x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x8x2048x2048.size a
  hwx0_5 : ∀ i : grid0.Coords, EltTy.bits .f32 = 32 ∨ (Rect.block (s := S4x8x2048x2048) S1x1x512x2048.size (cc0_transform_5 i) (hinb0_5 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S8x2048x2048 : Shape := ⟨3, ![8, 2048, 2048]⟩
abbrev S_ : Shape := ⟨0, ![]⟩
abbrev S4x8x2048x2048 : Shape := ⟨4, ![4, 8, 2048, 2048]⟩
abbrev S1x8x2048x2048 : Shape := ⟨4, ![1, 8, 2048, 2048]⟩
abbrev S4x8x2048 : Shape := ⟨3, ![4, 8, 2048]⟩
abbrev S4x8x2048x1 : Shape := ⟨4, ![4, 8, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x2048x64, .f32⟩
  | .hbm, ⟨2, _⟩ => ⟨S4x8x2048x64, .f32⟩
  | .hbm, ⟨3, _⟩ => ⟨S8x2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x8x2048x2048, .f32⟩
  | .hbm, ⟨9, _⟩ => ⟨S4x8x2048x2048, .f32⟩
  | .hbm, ⟨10, _⟩ => ⟨S4x8x2048x2048, .f32⟩
  | .hbm, ⟨11, _⟩ => ⟨S1x8x2048x2048, .f32⟩
  | .hbm, ⟨12, _⟩ => ⟨S4x8x2048x2048, .f32⟩
  | .hbm, ⟨13, _⟩ => ⟨S4x8x2048x2048, .f32⟩
  | .hbm, ⟨14, _⟩ => ⟨S_, .f32⟩
  | .hbm, ⟨15, _⟩ => ⟨S4x8x2048, .f32⟩
  | .hbm, ⟨16, _⟩ => ⟨S_, .f32⟩
  | .hbm, ⟨17, _⟩ => ⟨S4x8x2048, .f32⟩
  | .hbm, ⟨18, _⟩ => ⟨S4x8x2048, .f32⟩
  | .hbm, ⟨19, _⟩ => ⟨S4x8x2048x1, .f32⟩
  | .hbm, ⟨20, _⟩ => ⟨S4x8x2048x2048, .f32⟩
  | .hbm, ⟨21, _⟩ => ⟨S4x8x2048x2048, .f32⟩
  | .hbm, ⟨22, _⟩ => ⟨S4x8x2048x2048, .f32⟩
  | .hbm, ⟨23, _⟩ => ⟨S_, .f32⟩
  | .hbm, ⟨24, _⟩ => ⟨S4x8x2048, .f32⟩
  | .hbm, ⟨25, _⟩ => ⟨S4x8x2048x1, .f32⟩
  | .hbm, ⟨26, _⟩ => ⟨S4x8x2048x2048, .f32⟩
  | .hbm, ⟨27, _⟩ => ⟨S4x8x2048x2048, .f32⟩
  | .hbm, ⟨28, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S4x8x2048x2048 : S_.BroadcastsInDim S4x8x2048x2048 (![] : Fin 0 → Fin S4x8x2048x2048.rank)
  bcast_S8x2048x2048_S1x8x2048x2048_1_2_3 : S8x2048x2048.BroadcastsInDim S1x8x2048x2048 (![1, 2, 3] : Fin 3 → Fin S1x8x2048x2048.rank)
  bcast_S1x8x2048x2048_S4x8x2048x2048_0_1_2_3 : S1x8x2048x2048.BroadcastsInDim S4x8x2048x2048 (![0, 1, 2, 3] : Fin 4 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.Spec.lean ====
/-
  Scaled dot-product attention with an additive bias, one query row at a time, on the extended reals.

  For one (batch, head, query) the scores are  s k = (∑ d, q d * key k d) * c + bias k  over the keys k, and with
  m = max over k of s k,  p k = exp (s k - m),  l = ∑ k, p k  the two programs spell the same softmax differently:

    one multiplies by the reciprocal of the row sum:   w k = p k * (1 / l),    out d = (∑ k, p k * v k d) * (1 / l);
    the other divides by it:                            w k = p k / l,          out d = ∑ k, (p k / l) * v k d,
    taking its maximum as  max (-inf) (max over k)  and its sum from the initial value 0.

  This module only NAMES both spellings (over any number n of keys) and the two whole arrays they give; that they agree
  for real entries is the row algebra's, and that each program computes its spelling is the programs' own modules'.
  The float words are kept as words: -inf, 0, 1, 1/8 are `Ideal.ofBits .f32` of their patterns.
-/
import Idealize.ShloMosaic.PureOps.Ideal
import Idealize.ShloMosaic.Lib.ValueIdx

noncomputable section

namespace Cert.Attn

open Idealize.ShloMosaic Idealize.ShloMosaic.ValueIdx

variable {n : ℕ}

/-! ## One row, reciprocal spelling -/

/-- The row's maximum, folded from the word -inf. -/
def rowMax (s : Fin n → EReal) : EReal :=
  (Finset.univ : Finset (Fin n)).fold max (Ideal.ofBits .f32 0xFF800000#32) s

/-- The unnormalised weight of key `k`: exp of the score less the row's maximum. -/
def rowExp (s : Fin n → EReal) (k : Fin n) : EReal := Ideal.exp (s k - rowMax s)

/-- The row's normaliser. -/
def rowSum (s : Fin n → EReal) : EReal := ∑ k, rowExp s k

/-- Its reciprocal, 1 / l with the word 1. -/
def rowInv (s : Fin n → EReal) : EReal := Ideal.div (Ideal.ofBits .f32 0x3F800000#32) (rowSum s)

/-- The weight of key `k`: the unnormalised weight times the reciprocal. -/
def rowW (s : Fin n → EReal) (k : Fin n) : EReal := rowExp s k * rowInv s

/-- One output entry: the unnormalised weighted sum of a value column, times the reciprocal. -/
def rowOut (s v : Fin n → EReal) : EReal := (∑ k, rowExp s k * v k) * rowInv s

/-! ## One row, quotient spelling -/

/-- The maximum taken once more against -inf. -/
def refMax (s : Fin n → EReal) : EReal := max (Ideal.ofBits .f32 0xFF800000#32) (rowMax s)

def refExp (s : Fin n → EReal) (k : Fin n) : EReal := Ideal.exp (s k - refMax s)

/-- The normaliser summed from the initial value 0. -/
def refSum (s : Fin n → EReal) : EReal := Ideal.ofBits .f32 0x00000000#32 + ∑ k, refExp s k

/-- The weight as a quotient. -/
def refW (s : Fin n → EReal) (k : Fin n) : EReal := Ideal.div (refExp s k) (refSum s)

/-- One output entry: the sum of the normalised weights against a value column. -/
def refOut (s v : Fin n → EReal) : EReal := ∑ k, refW s k * v k

/-! ## The arrays: Q, K, V of shape [4, 8, 2048, 64] (batch, head, position, feature), the bias [8, 2048, 2048] -/

/-- The score row of (batch b, head h, query q) with the scale `c`:
    s k = (∑ d, Q[b,h,q,d] * K[b,h,k,d]) * c + bias[h,q,k]. -/
def scores (c : EReal) (Q K : (⟨4, ![4, 8, 2048, 64]⟩ : Shape).Idx → EReal)
    (B : (⟨3, ![8, 2048, 2048]⟩ : Shape).Idx → EReal) (b : Fin 4) (h : Fin 8) (q : Fin 2048) : Fin 2048 → EReal :=
  fun k => (∑ d : Fin 64, Q (ix4 b h q d) * K (ix4 b h k d)) * c + B (ix3 h q k)

/-- The value column of feature `d` for (batch b, head h). -/
def vcol (V : (⟨4, ![4, 8, 2048, 64]⟩ : Shape).Idx → EReal) (b : Fin 4) (h : Fin 8) (d : Fin 64) : Fin 2048 → EReal :=
  fun k => V (ix4 b h k d)

/-- The attention weights [4, 8, 2048, 2048], reciprocal spelling, scale the word 1/8. -/
def GW (Q K : (⟨4, ![4, 8, 2048, 64]⟩ : Shape).Idx → EReal) (B : (⟨3, ![8, 2048, 2048]⟩ : Shape).Idx → EReal) :
    (⟨4, ![4, 8, 2048, 2048]⟩ : Shape).Idx → EReal :=
  fun i => rowW (scores (Ideal.ofBits .f32 0x3E000000#32) Q K B (i 0) (i 1) (i 2)) (i 3)

/-- The attention output [4, 8, 2048, 64], reciprocal spelling, scale the word 1/8. -/
def GO (Q K V : (⟨4, ![4, 8, 2048, 64]⟩ : Shape).Idx → EReal) (B : (⟨3, ![8, 2048, 2048]⟩ : Shape).Idx → EReal) :
    (⟨4, ![4, 8, 2048, 64]⟩ : Shape).Idx → EReal :=
  fun i => rowOut (scores (Ideal.ofBits .f32 0x3E000000#32) Q K B (i 0) (i 1) (i 2)) (vcol V (i 0) (i 1) (i 3))

theorem GW_ix (Q K : (⟨4, ![4, 8, 2048, 64]⟩ : Shape).Idx → EReal) (B : (⟨3, ![8, 2048, 2048]⟩ : Shape).Idx → EReal)
    (b : Fin 4) (h : Fin 8) (q k : Fin 2048) :
    GW Q K B (ix4 b h q k) = rowW (scores (Ideal.ofBits .f32 0x3E000000#32) Q K B b h q) k := rfl

theorem GO_ix (Q K V : (⟨4, ![4, 8, 2048, 64]⟩ : Shape).Idx → EReal) (B : (⟨3, ![8, 2048, 2048]⟩ : Shape).Idx → EReal)
    (b : Fin 4) (h : Fin 8) (q : Fin 2048) (d : Fin 64) :
    GO Q K V B (ix4 b h q d) = rowOut (scores (Ideal.ofBits .f32 0x3E000000#32) Q K B b h q) (vcol V b h d) := rfl

end Cert.Attn

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.LibLayout.lean ====
/- Layout operations of "keepdims" column vectors and doubly unit-led blocks, read at an index built from explicit
   coordinates. Each lemma says which element of the operand an element of the result is. -/
import Idealize.ShloMosaic.Lib.Pipeline.Value
import Idealize.ShloMosaic.Lib.ValueIdx

noncomputable section

namespace Cert.LibLayout

open Idealize.ShloMosaic Idealize.ShloMosaic.ValueIdx

variable {α : Type}

/-- A [1, 1, a, b] block viewed as [a, b]: element (p, q) is element (0, 0, p, q). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An [a, b] value stored as a [1, 1, a, b] block: element (0, 0, p, q) is element (p, q). -/
theorem shapeCast_ab_11ab_apply {a b : ℕ} (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 (0 : Fin 1) (0 : Fin 1) p q) = x (ix2 p q) :=
  shapeCast_apply x h _ _ (by
    rw [Shape.rowMajor_val_four, Shape.rowMajor_val_two]
    show p.val * b + q.val = ((0 * 1 + 0) * a + p.val) * b + q.val
    simp only [Nat.zero_mul, Nat.zero_add])

/-- A vector [a] viewed as a column [a, 1]: element (p, 0) is element p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_one, Shape.rowMajor_val_two]
    show p.val = p.val * 1 + 0
    simp only [Nat.mul_one, Nat.add_zero])

/-- A column [a, 1] broadcast along its rows to [a, b]: element (p, q) is element (p, 0). -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) :=
  broadcastTo_apply x h _ _ (fun c => by
    match c with
    | ⟨0, _⟩ =>
      show p.val = if a = 1 then 0 else p.val
      by_cases ha : a = 1
      · rw [if_pos ha]; have := p.isLt; omega
      · rw [if_neg ha]
    | ⟨1, _⟩ =>
      show 0 = if (1 : ℕ) = 1 then 0 else q.val
      rw [if_pos rfl])

end Cert.LibLayout

end
-- ==== Proof.KernelPay.lean ====
/-
  What one grid point's body computes, entry by entry.

  At a grid point the body holds a block of 512 query rows q [1,1,512,64], the keys and the values of the point's
  (batch, head), each [1,1,2048,64], and the bias block [1,512,2048]. For block row r it forms the score row
      s k = (∑ d, q[r,d] * key[k,d]) * (1/8) + bias[r,k]
  (the product of q with the transposed keys into a zero accumulator, the splat of the word 1/8, the bias added), the
  row's maximum by a lane reduction from the word -inf, the exponentials p k = exp (s k - max), the row sum by a lane
  reduction, its reciprocal 1 / l, and stores
      the weights          w[r,k] = p k * (1 / l)
      the output entries   o[r,d] = (∑ k, p k * v[k,d]) * (1 / l)      (the product of p with the values, then the scaling).
  A change of float format is the identity on the extended reals, so the narrowing of q, k, v and p before the products
  leaves no trace. Each lemma reads one stage at an index given by explicit coordinates; together they say that the stored
  blocks are the reciprocal spelling of the row softmax (`rowW`, `rowOut`) over the block's score rows.
-/
import proofs.«157557_j28578712387681_2_alg».proof.Proof.Gen.KernelIdeal.Value
import proofs.«157557_j28578712387681_2_alg».proof.Proof.Spec
import proofs.«157557_j28578712387681_2_alg».proof.Proof.LibMatmulSum
import proofs.«157557_j28578712387681_2_alg».proof.Proof.LibLayout
import Idealize.ShloMosaic.Lib.ValueLayout
import Idealize.ShloMosaic.PureOps.Ideal.Laws

noncomputable section

namespace Cert.Attn.Ker

open Idealize.ShloMosaic Idealize.ShloMosaic.ValueIdx Cert.KernelIdeal Cert.KernelIdeal.Gen Cert.Attn

/-- The score row of block row r -/
def bscores (P0 : Vec Ideal S1x1x512x64 .f32) (P1 : Vec Ideal S1x1x2048x64 .f32) (P3 : Vec Ideal S1x512x2048 .f32)
    (r : Fin 512) : Fin 2048 → EReal :=
  fun k => (∑ d : Fin 64, P0 (ix4 (0 : Fin 1) (0 : Fin 1) r d) * P1 (ix4 (0 : Fin 1) (0 : Fin 1) k d))
    * Ideal.ofBits .f32 0x3E000000#32 + P3 (ix3 (0 : Fin 1) r k)

/-- The block of scores as the body computes it. -/
def sc (P0 : Vec Ideal S1x1x512x64 .f32) (P1 : Vec Ideal S1x1x2048x64 .f32) (P3 : Vec Ideal S1x512x2048 .f32) :
    FVec Ideal S512x2048 .f32 :=
  addf (mulf (matmul dot_S512x64_S64x2048_S512x2048_1_0_0_1_n_n none
        (truncf .bf16 (shapeCast S512x64 P0 shapeCasts_S1x1x512x64_S512x64) bitsLt_bf16_f32)
        (transpose S64x2048 [1, 0] (truncf .bf16 (shapeCast S2048x64 P1 shapeCasts_S1x1x2048x64_S2048x64) bitsLt_bf16_f32)
          transposes_S2048x64_p1_0_S64x2048)
        (constant S512x2048 .f32 0x00000000#32))
      (broadcast S512x2048 (Scalar.ofBits .f32 0x3E000000#32)))
    (shapeCast S512x2048 P3 shapeCasts_S1x512x2048_S512x2048)

theorem pay3_eq (P0 : Vec Ideal S1x1x512x64 .f32) (P1 : Vec Ideal S1x1x2048x64 .f32) (P3 : Vec Ideal S1x512x2048 .f32) :
    k0_pay3 P0 P1 P3 = exp (subf (sc P0 P1 P3) (broadcastTo S512x2048 (shapeCast S512x1
      (multiReduction .maximumf [1] S512 (sc P0 P1 P3) 0xFF800000#32 reduces_S512x2048_S512 (.inl rfl) rfl)
      shapeCasts_S512_S512x1) broadcasts_S512x1_S512x2048)) := rfl

theorem sc_at (P0 : Vec Ideal S1x1x512x64 .f32) (P1 : Vec Ideal S1x1x2048x64 .f32) (P3 : Vec Ideal S1x512x2048 .f32)
    (r : Fin 512) (k : Fin 2048) : sc P0 P1 P3 (ix2 r k) = bscores P0 P1 P3 r k := by
  unfold sc bscores
  show FloatOps.matmul _ none _ _ (constant S512x2048 .f32 0x00000000#32) (ix2 r k) * Ideal.ofBits .f32 0x3E000000#32
      + shapeCast S512x2048 P3 shapeCasts_S1x512x2048_S512x2048 (ix2 r k) = _
  rw [MatmulSum.matmul_zero_apply _ rfl rfl rfl rfl rfl rfl, shapeCast_1ab_ab_apply]
  refine congrArg (fun x => x * _ + _) (Finset.sum_congr rfl fun d _ => ?_)
  refine congrArg₂ (· * ·) ?_ ?_
  · exact Cert.LibLayout.shapeCast_11ab_ab_apply P0 _ r d
  · exact (transpose_ix2_apply _ _ d k).trans (Cert.LibLayout.shapeCast_11ab_ab_apply P1 _ k d)

/-- Inserting the key coordinate into a row index. -/
theorem lift_row (r : Fin 512) (k : Fin 2048) : reduces_S512x2048_S512.lift (ix1 r) k = ix2 r k :=
  funext fun a => Fin.ext (by match a with | ⟨0, _⟩ => rfl | ⟨1, _⟩ => rfl)

theorem rowmax_at (P0 : Vec Ideal S1x1x512x64 .f32) (P1 : Vec Ideal S1x1x2048x64 .f32) (P3 : Vec Ideal S1x512x2048 .f32)
    (r : Fin 512) :
    multiReduction .maximumf [1] S512 (sc P0 P1 P3) 0xFF800000#32 reduces_S512x2048_S512 (.inl rfl) rfl (ix1 r)
      = rowMax (bscores P0 P1 P3 r) := by
  refine (Ideal.multiReduction_maximumf_single (sc P0 P1 P3) _ reduces_S512x2048_S512 (.inl rfl) rfl (ix1 r)).trans ?_
  unfold rowMax
  refine congrArg (fun f => (Finset.univ : Finset (Fin 2048)).fold max (Ideal.ofBits .f32 0xFF800000#32) f)
    (funext fun k' => ?_)
  exact (congrArg (sc P0 P1 P3) (lift_row r k')).trans (sc_at P0 P1 P3 r k')

theorem mx_at (P0 : Vec Ideal S1x1x512x64 .f32) (P1 : Vec Ideal S1x1x2048x64 .f32) (P3 : Vec Ideal S1x512x2048 .f32)
    (r : Fin 512) (k : Fin 2048) :
    broadcastTo S512x2048 (shapeCast S512x1
        (multiReduction .maximumf [1] S512 (sc P0 P1 P3) 0xFF800000#32 reduces_S512x2048_S512 (.inl rfl) rfl)
        shapeCasts_S512_S512x1) broadcasts_S512x1_S512x2048 (ix2 r k) = rowMax (bscores P0 P1 P3 r) :=
  (Cert.LibLayout.broadcastTo_a1_ab_apply _ _ r k).trans
    ((Cert.LibLayout.shapeCast_a_a1_apply _ _ r).trans (rowmax_at P0 P1 P3 r))

theorem pay3_at (P0 : Vec Ideal S1x1x512x64 .f32) (P1 : Vec Ideal S1x1x2048x64 .f32) (P3 : Vec Ideal S1x512x2048 .f32)
    (r : Fin 512) (k : Fin 2048) : k0_pay3 P0 P1 P3 (ix2 r k) = rowExp (bscores P0 P1 P3 r) k := by
  rw [pay3_eq]
  show Ideal.exp (sc P0 P1 P3 (ix2 r k) - _) = Ideal.exp (bscores P0 P1 P3 r k - rowMax (bscores P0 P1 P3 r))
  rw [sc_at, mx_at]

theorem sum_at (P0 : Vec Ideal S1x1x512x64 .f32) (P1 : Vec Ideal S1x1x2048x64 .f32) (P3 : Vec Ideal S1x512x2048 .f32)
    (r : Fin 512) :
    multiReduction .add [1] S512 (k0_pay3 P0 P1 P3) 0x00000000#32 reduces_S512x2048_S512 (.inl rfl) rfl (ix1 r)
      = rowSum (bscores P0 P1 P3 r) := by
  refine (Ideal.multiReduction_add_single (k0_pay3 P0 P1 P3) _ reduces_S512x2048_S512 (.inl rfl) rfl (ix1 r)).trans ?_
  unfold rowSum
  exact Finset.sum_congr rfl fun k' _ =>
    (congrArg (k0_pay3 P0 P1 P3) (lift_row r k')).trans (pay3_at P0 P1 P3 r k')

theorem pay4_at (P0 : Vec Ideal S1x1x512x64 .f32) (P1 : Vec Ideal S1x1x2048x64 .f32) (P3 : Vec Ideal S1x512x2048 .f32)
    (r : Fin 512) : k0_pay4 P0 P1 P3 (ix2 r (0 : Fin 1)) = rowInv (bscores P0 P1 P3 r) := by
  show Ideal.div (Ideal.ofBits .f32 0x3F800000#32) (shapeCast S512x1
      (multiReduction .add [1] S512 (k0_pay3 P0 P1 P3) 0x00000000#32 reduces_S512x2048_S512 (.inl rfl) rfl)
      shapeCasts_S512_S512x1 (ix2 r (0 : Fin 1))) = _
  rw [Cert.LibLayout.shapeCast_a_a1_apply, sum_at]
  rfl

theorem E5_at (P0 : Vec Ideal S1x1x512x64 .f32) (P1 : Vec Ideal S1x1x2048x64 .f32) (P3 : Vec Ideal S1x512x2048 .f32)
    (r : Fin 512) (k : Fin 2048) :
    Cert.KernelIdeal.Value.E5 P0 P1 P3 (ix4 (0 : Fin 1) (0 : Fin 1) r k) = rowW (bscores P0 P1 P3 r) k := by
  have e0 : Cert.KernelIdeal.Value.ix5_0 (ix4 (0 : Fin 1) (0 : Fin 1) r k) = ix2 r k :=
    funext fun a => Fin.ext (by match a with | ⟨0, _⟩ => rfl | ⟨1, _⟩ => rfl)
  have e1 : Cert.KernelIdeal.Value.ix5_1 (ix4 (0 : Fin 1) (0 : Fin 1) r k) = ix1 r :=
    funext fun a => Fin.ext (by match a with | ⟨0, _⟩ => rfl)
  show k0_pay3 P0 P1 P3 (Cert.KernelIdeal.Value.ix5_0 (ix4 (0 : Fin 1) (0 : Fin 1) r k))
      * Ideal.div (Ideal.ofBits .f32 0x3F800000#32)
          (multiReduction .add [1] S512 (k0_pay3 P0 P1 P3) 0x00000000#32 reduces_S512x2048_S512 (.inl rfl) rfl
            (Cert.KernelIdeal.Value.ix5_1 (ix4 (0 : Fin 1) (0 : Fin 1) r k))) = _
  rw [e0, e1, pay3_at, sum_at]
  rfl

theorem pay1_at (P0 : Vec Ideal S1x1x512x64 .f32) (P1 P2 : Vec Ideal S1x1x2048x64 .f32) (P3 : Vec Ideal S1x512x2048 .f32)
    (r : Fin 512) (d : Fin 64) :
    k0_pay1 (k0_pay2 P2) (k0_pay4 P0 P1 P3) (k0_pay6 P0 P1 P3) (constant S512x64 .f32 0x00000000#32)
        (ix4 (0 : Fin 1) (0 : Fin 1) r d)
      = rowOut (bscores P0 P1 P3 r) (fun k => P2 (ix4 (0 : Fin 1) (0 : Fin 1) k d)) := by
  unfold k0_pay1
  refine (Cert.LibLayout.shapeCast_ab_11ab_apply _ _ r d).trans ?_
  show FloatOps.matmul _ none _ _ (constant S512x64 .f32 0x00000000#32) (ix2 r d)
      * broadcastTo S512x64 (k0_pay4 P0 P1 P3) broadcasts_S512x1_S512x64 (ix2 r d) = _
  rw [MatmulSum.matmul_zero_apply _ rfl rfl rfl rfl rfl rfl, Cert.LibLayout.broadcastTo_a1_ab_apply, pay4_at]
  unfold rowOut
  refine congrArg (· * _) (Finset.sum_congr rfl fun k _ => ?_)
  refine congrArg₂ (· * ·) ?_ ?_
  · exact pay3_at P0 P1 P3 r k
  · exact Cert.LibLayout.shapeCast_11ab_ab_apply P2 _ k d

end Cert.Attn.Ker

end
-- ==== Proof.Blocks.lean ====
/-
  From the grid's blocks to the two result arrays.

  The grid has 8 x 4 x 4 points t = (head h, query tile j, batch b). At t the body sees the query block Q[b, h, 512 j .. 512 j + 511, :],
  all keys K[b, h, :, :] and values V[b, h, :, :], and the bias block bias[h, 512 j .. 512 j + 511, :], and writes back the
  output block [b, h, 512 j .. , :] and the weights block [b, h, 512 j .. , :]. A block's coordinate on an axis is always
  (block index) x (block size) + (coordinate inside the block); the relations between the six windows' block indices are
  decided once over the 128 points.

  So block row r at point t is query q = 512 j + r of (b, h): the block's score row is the arrays' score row there, and what
  the point writes back is exactly block t of the arrays GW (weights) and GO (output) of the argument arrays. Every index
  (b, h, q, .) lies in the block of the point with block index (b, h, q / 512, 0), so the blocks cover both arrays, and the
  arrays end holding GW and GO: one equation at a symbolic point, then the cover.
-/
import proofs.«157557_j28578712387681_2_alg».proof.Proof.Gen.KernelIdeal.Value
import proofs.«157557_j28578712387681_2_alg».proof.Proof.Spec
import proofs.«157557_j28578712387681_2_alg».proof.Proof.KernelPay
import Idealize.ShloMosaic.Lib.Pipeline.Value

noncomputable section

namespace Cert.Attn.Blk

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.Attn

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-! ## What the body leaves in the two output blocks, entry by entry -/

theorem out5_at (x0 : Vec Ideal S1x1x512x64 .f32) (x1 x2 : Vec Ideal S1x1x2048x64 .f32) (x3 : Vec Ideal S1x512x2048 .f32)
    (r : Fin 512) (k : Fin 2048) :
    out0_5 x0 x1 x2 x3 (ix4 (0 : Fin 1) (0 : Fin 1) r k) = rowW (Ker.bscores x0 x1 x3 r) k := by
  unfold out0_5
  simp only [View.ld_unit_zero (S := S1x1x512x64) hz4, View.ld_unit_zero (S := S1x1x2048x64) hz4,
    View.ld_unit_zero (S := S1x512x2048) hz3]
  exact (canon5_eq x0 x1 x3 _).trans (Ker.E5_at x0 x1 x3 r k)

theorem out4_at (x0 : Vec Ideal S1x1x512x64 .f32) (x1 x2 : Vec Ideal S1x1x2048x64 .f32) (x3 : Vec Ideal S1x512x2048 .f32)
    (r : Fin 512) (d : Fin 64) :
    out0_4 x0 x1 x2 x3 (ix4 (0 : Fin 1) (0 : Fin 1) r d)
      = rowOut (Ker.bscores x0 x1 x3 r) (fun k => x2 (ix4 (0 : Fin 1) (0 : Fin 1) k d)) := by
  unfold out0_4
  rw [View.canon_unit_zero hz4]
  simp only [View.ld_unit_zero (S := S1x1x512x64) hz4, View.ld_unit_zero (S := S1x1x2048x64) hz4,
    View.ld_unit_zero (S := S1x512x2048) hz3]
  exact Ker.pay1_at x0 x1 x2 x3 r d

/-! ## The grid: point t = (head, query tile, batch); every window's block index from the weights window's -/

theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 3) = win0_5.index t (1 : Fin 4) ∧ win0_3.index t (1 : Fin 3) = win0_5.index t (2 : Fin 4)
      ∧ win0_3.index t (2 : Fin 3) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0)
    ∧ (win0_5.index t (0 : Fin 4) < 4 ∧ win0_5.index t (1 : Fin 4) < 8 ∧ win0_5.index t (2 : Fin 4) < 4
      ∧ win0_5.index t (3 : Fin 4) = 0) :=
  (by decide +kernel : ∀ t : Fin grid0.N, _)

theorem idx_onto : ∀ (b : Fin 4) (h : Fin 8) (j : Fin 4), ∃ t : Fin cfg0.N, win0_5.index t = ![b.val, h.val, j.val, 0] :=
  (by decide +kernel : ∀ (b : Fin 4) (h : Fin 8) (j : Fin 4), ∃ t : Fin grid0.N, win0_5.index t = ![b.val, h.val, j.val, 0])

/-- The same at any index of the block: rows are its third coordinate, columns its fourth. -/
theorem out5_apply (x0 : Vec Ideal S1x1x512x64 .f32) (x1 x2 : Vec Ideal S1x1x2048x64 .f32) (x3 : Vec Ideal S1x512x2048 .f32)
    (y : S1x1x512x2048.Idx) : out0_5 x0 x1 x2 x3 y = rowW (Ker.bscores x0 x1 x3 (y 2)) (y 3) := by
  obtain ⟨u0, u1, r, k, rfl⟩ : ∃ (u0 u1 : Fin 1) (r : Fin 512) (k : Fin 2048), y = ix4 u0 u1 r k :=
    ⟨y 0, y 1, y 2, y 3, eq_ix4 y⟩
  obtain rfl : u0 = 0 := Subsingleton.elim _ _
  obtain rfl : u1 = 0 := Subsingleton.elim _ _
  exact out5_at x0 x1 x2 x3 r k

theorem out4_apply (x0 : Vec Ideal S1x1x512x64 .f32) (x1 x2 : Vec Ideal S1x1x2048x64 .f32) (x3 : Vec Ideal S1x512x2048 .f32)
    (y : S1x1x512x64.Idx) :
    out0_4 x0 x1 x2 x3 y = rowOut (Ker.bscores x0 x1 x3 (y 2)) (fun k => x2 (ix4 (0 : Fin 1) (0 : Fin 1) k (y 3))) := by
  obtain ⟨u0, u1, r, d, rfl⟩ : ∃ (u0 u1 : Fin 1) (r : Fin 512) (d : Fin 64), y = ix4 u0 u1 r d :=
    ⟨y 0, y 1, y 2, y 3, eq_ix4 y⟩
  obtain rfl : u0 = 0 := Subsingleton.elim _ _
  obtain rfl : u1 = 0 := Subsingleton.elim _ _
  exact out4_at x0 x1 x2 x3 r d

/-! ## The input blocks, read off the arrays: a block's coordinate is index × size + the coordinate inside -/

theorem iblk0_at (c : Dev nD) (t : Fin cfg0.N) (r : Fin 512) (d : Fin 64) (b : Fin 4) (h : Fin 8) (q : Fin 2048)
    (hb : b.val = win0_5.index t (0 : Fin 4)) (hh : h.val = win0_5.index t (1 : Fin 4))
    (hq : q.val = win0_5.index t (2 : Fin 4) * 512 + r.val) :
    (iblk m c 0 t : Vec Ideal S1x1x512x64 .f32) (ix4 (0 : Fin 1) (0 : Fin 1) r d)
      = (m ((c : Thread nD τ).loc main_arg0) : S4x8x2048x64.Idx → EReal) (ix4 b h q d) := by
  obtain ⟨⟨e0, e1, e2, e3⟩, -⟩ := idx_facts t
  unfold iblk
  rw [View.read_apply]
  show V m c main_arg0 _ = m ((c : Thread nD τ).loc main_arg0) _
  unfold V
  congr 1
  funext a
  apply Fin.ext
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 512 + 1 * r.val = q.val; omega
  | ⟨3, _⟩ => show win0_0.index t (3 : Fin 4) * 64 + 1 * d.val = d.val; omega

theorem iblk1_at (c : Dev nD) (t : Fin cfg0.N) (k : Fin 2048) (d : Fin 64) (b : Fin 4) (h : Fin 8)
    (hb : b.val = win0_5.index t (0 : Fin 4)) (hh : h.val = win0_5.index t (1 : Fin 4)) :
    (iblk m c 1 t : Vec Ideal S1x1x2048x64 .f32) (ix4 (0 : Fin 1) (0 : Fin 1) k d)
      = (m ((c : Thread nD τ).loc main_arg1) : S4x8x2048x64.Idx → EReal) (ix4 b h k d) := by
  obtain ⟨-, ⟨e0, e1, e2, e3⟩, -⟩ := idx_facts t
  unfold iblk
  rw [View.read_apply]
  show V m c main_arg1 _ = m ((c : Thread nD τ).loc main_arg1) _
  unfold V
  congr 1
  funext a
  apply Fin.ext
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 2048 + 1 * k.val = k.val; omega
  | ⟨3, _⟩ => show win0_1.index t (3 : Fin 4) * 64 + 1 * d.val = d.val; omega

theorem iblk2_at (c : Dev nD) (t : Fin cfg0.N) (k : Fin 2048) (d d' : Fin 64) (b : Fin 4) (h : Fin 8)
    (hb : b.val = win0_5.index t (0 : Fin 4)) (hh : h.val = win0_5.index t (1 : Fin 4)) (hd : d'.val = d.val) :
    (iblk m c 2 t : Vec Ideal S1x1x2048x64 .f32) (ix4 (0 : Fin 1) (0 : Fin 1) k d)
      = (m ((c : Thread nD τ).loc main_arg2) : S4x8x2048x64.Idx → EReal) (ix4 b h k d') := by
  obtain ⟨-, -, ⟨e0, e1, e2, e3⟩, -⟩ := idx_facts t
  unfold iblk
  rw [View.read_apply]
  show V m c main_arg2 _ = m ((c : Thread nD τ).loc main_arg2) _
  unfold V
  congr 1
  funext a
  apply Fin.ext
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 2048 + 1 * k.val = k.val; omega
  | ⟨3, _⟩ => show win0_2.index t (3 : Fin 4) * 64 + 1 * d.val = d'.val; omega

theorem iblk3_at (c : Dev nD) (t : Fin cfg0.N) (r : Fin 512) (k : Fin 2048) (h : Fin 8) (q : Fin 2048)
    (hh : h.val = win0_5.index t (1 : Fin 4)) (hq : q.val = win0_5.index t (2 : Fin 4) * 512 + r.val) :
    (iblk m c 3 t : Vec Ideal S1x512x2048 .f32) (ix3 (0 : Fin 1) r k)
      = (m ((c : Thread nD τ).loc main_arg3) : S8x2048x2048.Idx → EReal) (ix3 h q k) := by
  obtain ⟨-, -, -, ⟨e0, e1, e2⟩, -⟩ := idx_facts t
  unfold iblk
  rw [View.read_apply]
  show V m c main_arg3 _ = m ((c : Thread nD τ).loc main_arg3) _
  unfold V
  congr 1
  funext a
  apply Fin.ext
  match a with
  | ⟨0, _⟩ => show win0_3.index t (0 : Fin 3) * 1 + 1 * 0 = h.val; omega
  | ⟨1, _⟩ => show win0_3.index t (1 : Fin 3) * 512 + 1 * r.val = q.val; omega
  | ⟨2, _⟩ => show win0_3.index t (2 : Fin 3) * 2048 + 1 * k.val = k.val; omega

/-- The score row of block row r at point t is the arrays' score row of (batch, head, query) = the block's place. -/
theorem bscores_blk (c : Dev nD) (t : Fin cfg0.N) (b : Fin 4) (h : Fin 8) (q : Fin 2048) (r : Fin 512)
    (hb : b.val = win0_5.index t (0 : Fin 4)) (hh : h.val = win0_5.index t (1 : Fin 4))
    (hq : q.val = win0_5.index t (2 : Fin 4) * 512 + r.val) :
    Ker.bscores (iblk m c 0 t) (iblk m c 1 t) (iblk m c 3 t) r
      = scores (Ideal.ofBits .f32 0x3E000000#32) (m ((c : Thread nD τ).loc main_arg0)) (m ((c : Thread nD τ).loc main_arg1))
          (m ((c : Thread nD τ).loc main_arg3)) b h q := by
  funext k
  exact congrArg₂ (fun x y => x * Ideal.ofBits .f32 0x3E000000#32 + y)
    (Finset.sum_congr rfl fun d _ => congrArg₂ (· * ·) (iblk0_at m c t r d b h q hb hh hq) (iblk1_at m c t k d b h hb hh))
    (iblk3_at m c t r k h q hh hq)

/-! ## What point t writes back is block t of the arrays GW and GO -/

theorem flushed5_eq (c : Dev nD) (t : Fin cfg0.N) :
    (dats m 0 c).flushed 5 t = ((cfg0.win 5).blk t).view.read (Elt Ideal)
      (GW (m ((c : Thread nD τ).loc main_arg0)) (m ((c : Thread nD τ).loc main_arg1)) (m ((c : Thread nD τ).loc main_arg3))) := by
  rw [flushed5]
  obtain ⟨-, -, -, -, -, ⟨l0, l1, l2, e3⟩⟩ := idx_facts t
  funext y
  show out0_5 (iblk m c 0 t) (iblk m c 1 t) (iblk m c 2 t) (iblk m c 3 t) y
    = GW _ _ _ (((cfg0.win 5).blk t).view.emb y)
  have hy0 : (y 0).val < 1 := (y 0).isLt
  have hy1 : (y 1).val < 1 := (y 1).isLt
  have hy2 : (y 2).val < 512 := (y 2).isLt
  have h0 : ((((cfg0.win 5).blk t).view.emb y) 0).val = win0_5.index t (0 : Fin 4) := by
    show win0_5.index t (0 : Fin 4) * 1 + 1 * (y 0).val = _; omega
  have h1 : ((((cfg0.win 5).blk t).view.emb y) 1).val = win0_5.index t (1 : Fin 4) := by
    show win0_5.index t (1 : Fin 4) * 1 + 1 * (y 1).val = _; omega
  have h2 : ((((cfg0.win 5).blk t).view.emb y) 2).val = win0_5.index t (2 : Fin 4) * 512 + (y 2).val := by
    show win0_5.index t (2 : Fin 4) * 512 + 1 * (y 2).val = _; omega
  have h3 : (y 3 : Fin 2048) = ((((cfg0.win 5).blk t).view.emb y) 3 : Fin 2048) := Fin.ext (by
    show (y 3).val = win0_5.index t (3 : Fin 4) * 2048 + 1 * (y 3).val; omega)
  refine (out5_apply _ _ _ _ y).trans ?_
  exact congrArg₂ rowW (bscores_blk m c t _ _ _ (y 2) h0 h1 h2) h3

theorem flushed4_eq (c : Dev nD) (t : Fin cfg0.N) :
    (dats m 0 c).flushed 4 t = ((cfg0.win 4).blk t).view.read (Elt Ideal)
      (GO (m ((c : Thread nD τ).loc main_arg0)) (m ((c : Thread nD τ).loc main_arg1)) (m ((c : Thread nD τ).loc main_arg2))
        (m ((c : Thread nD τ).loc main_arg3))) := by
  rw [flushed4]
  obtain ⟨-, -, -, -, ⟨f0, f1, f2, f3⟩, ⟨l0, l1, l2, e3⟩⟩ := idx_facts t
  funext y
  show out0_4 (iblk m c 0 t) (iblk m c 1 t) (iblk m c 2 t) (iblk m c 3 t) y
    = GO _ _ _ _ (((cfg0.win 4).blk t).view.emb y)
  have hy0 : (y 0).val < 1 := (y 0).isLt
  have hy1 : (y 1).val < 1 := (y 1).isLt
  have hy2 : (y 2).val < 512 := (y 2).isLt
  have h0 : ((((cfg0.win 4).blk t).view.emb y) 0).val = win0_5.index t (0 : Fin 4) := by
    show win0_4.index t (0 : Fin 4) * 1 + 1 * (y 0).val = _; omega
  have h1 : ((((cfg0.win 4).blk t).view.emb y) 1).val = win0_5.index t (1 : Fin 4) := by
    show win0_4.index t (1 : Fin 4) * 1 + 1 * (y 1).val = _; omega
  have h2 : ((((cfg0.win 4).blk t).view.emb y) 2).val = win0_5.index t (2 : Fin 4) * 512 + (y 2).val := by
    show win0_4.index t (2 : Fin 4) * 512 + 1 * (y 2).val = _; omega
  have h3 : ((((cfg0.win 4).blk t).view.emb y) 3).val = (y 3).val := by
    show win0_4.index t (3 : Fin 4) * 64 + 1 * (y 3).val = _; omega
  refine (out4_apply _ _ _ _ y).trans ?_
  exact congrArg₂ rowOut (bscores_blk m c t _ _ _ (y 2) h0 h1 h2)
    (funext fun k => iblk2_at m c t k (y 3) _ _ _ h0 h1 h3)

/-! ## The blocks cover the arrays -/

theorem mem_blk5 (t : Fin cfg0.N) (i : S4x8x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v0_1).slice (win0_5.rect t)).set ↔ _
  rw [View.set_slice_whole, Rect.mem_set_unit]
  exact Iff.rfl

theorem mem_blk4 (t : Fin cfg0.N) (i : S4x8x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v0_0).slice (win0_4.rect t)).set ↔ _
  rw [View.set_slice_whole, Rect.mem_set_unit]
  exact Iff.rfl

/-- The point that covers (b, h, q, ·) is the one of block index (b, h, q / 512, 0). -/
theorem cover5 (i : S4x8x2048x2048.Idx) :
    ∃ t : Fin cfg0.N, (cfg0.win 5).flush t = true ∧ i ∈ ((cfg0.win 5).blk t).view.set := by
  have hi0 : (i 0).val < 4 := (i 0).isLt
  have hi1 : (i 1).val < 8 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

theorem cover4 (i : S4x8x2048x64.Idx) :
    ∃ t : Fin cfg0.N, (cfg0.win 4).flush t = true ∧ i ∈ ((cfg0.win 4).blk t).view.set := by
  have hi0 : (i 0).val < 4 := (i 0).isLt
  have hi1 : (i 1).val < 8 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  obtain ⟨-, -, -, -, ⟨f0, f1, f2, f3⟩, -⟩ := idx_facts t
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The arrays after the run, and the run -/

theorem final5 (c : Dev nD) : (dats m 0 c).arrAt 5 cfg0.N
    = GW (m ((c : Thread nD τ).loc main_arg0)) (m ((c : Thread nD τ).loc main_arg1)) (m ((c : Thread nD τ).loc main_arg3)) :=
  (dats m 0 c).arrAt_eq_of_cover 5 _ (fun t _ => flushed5_eq m c t) cover5

theorem final4 (c : Dev nD) : (dats m 0 c).arrAt 4 cfg0.N
    = GO (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed4_eq m c t) cover4

/-- Every weakly fair execution of the kernel's program ends with the output array at GO and the weights array at GW of
    the argument arrays, the arguments unchanged. -/
theorem run : θ_run defs (onTc (τ := τ) (main (F := Ideal))) ⟨m, fun _ => 0, ρ⟩ fun r => ∀ c : Dev nD,
      r.2.mem ((c : Thread nD τ).loc main_v0_0)
        = GO (m ((c : Thread nD τ).loc main_arg0)) (m ((c : Thread nD τ).loc main_arg1)) (m ((c : Thread nD τ).loc main_arg2))
            (m ((c : Thread nD τ).loc main_arg3))
      ∧ r.2.mem ((c : Thread nD τ).loc main_v0_1)
        = GW (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Cert.Attn.Blk

end
-- ==== Proof.RefIsSpec.lean ====
/-
  The reference program read index by index.

  For one (batch b, head h, query q) write s k = (∑ d, Q[b,h,q,d] * K[b,h,k,d]) * c + bias[h,q,k] for the score row, with
  c = 1 / sqrt 64 kept as the quotient of the two words. Stage by stage the reference's arrays are, at an index,

    scores      [b,h,q,k]  =  s k
    row maximum [b,h,q]    =  max (-inf) (fold of max from -inf over k of s k)
    exponential [b,h,q,k]  =  exp (s k - maximum)
    row sum     [b,h,q]    =  0 + ∑ k, exponential k
    weights     [b,h,q,k]  =  exponential k / sum
    output      [b,h,q,d]  =  ∑ k, weights k * V[b,h,k,d]

  which is the quotient spelling of the row softmax. Each stage is one reading of the program's operations at an index;
  the only facts used besides are that every composed index function of a layout operation, evaluated at an index given by
  its coordinates, is again an index given by coordinates (checked coordinate by coordinate), and that a reduction with a
  commutative associative body over the last axis is the fold over that axis's coordinates.
-/
import proofs.«157557_j28578712387681_2_alg».proof.Proof.Gen.ReferenceIdeal.Read
import proofs.«157557_j28578712387681_2_alg».proof.Proof.Spec
import Idealize.ShloMosaic.PureOps.Reduce

noncomputable section

namespace Cert.Attn.Ref

open Idealize.ShloMosaic Idealize.ShloMosaic.ValueIdx Cert.ReferenceIdeal Cert.ReferenceIdeal.Gen Cert.ReferenceIdeal.Read Cert.Attn

/-- The reference's scale: the word 1 divided by the square root of the word 64. -/
abbrev scaleRef : EReal := Ideal.div (Ideal.ofBits .f32 0x3F800000#32) (Ideal.sqrt (Ideal.ofBits .f32 0x42800000#32))

/-! ## The index functions at an index given by its coordinates -/

/-- The first product's left operand at (b,h,q,k), contraction coordinate d: Q's index (b,h,q,d). -/
theorem lidx_v2_ix (b : Fin 4) (h : Fin 8) (q k : Fin 2048) (d : Fin 64) :
    lidx_main_v2 (ix4 b h q k) d = ix4 b h q d :=
  funext fun a => Fin.ext (by match a with | ⟨0, _⟩ => rfl | ⟨1, _⟩ => rfl | ⟨2, _⟩ => rfl | ⟨3, _⟩ => rfl)

/-- The first product's right operand at (b,h,q,k), contraction coordinate d: K's index (b,h,k,d). -/
theorem ridx_v2_ix (b : Fin 4) (h : Fin 8) (q k : Fin 2048) (d : Fin 64) :
    ridx_main_v2 (ix4 b h q k) d = ix4 b h k d :=
  funext fun a => Fin.ext (by match a with | ⟨0, _⟩ => rfl | ⟨1, _⟩ => rfl | ⟨2, _⟩ => rfl | ⟨3, _⟩ => rfl)

/-- The bias broadcast twice, at (b,h,q,k): the bias's index (h,q,k). -/
theorem idx_v5_v6_ix (b : Fin 4) (h : Fin 8) (q k : Fin 2048) :
    idx_main_v5 (idx_main_v6 (ix4 b h q k)) = ix3 h q k :=
  funext fun a => Fin.ext (by match a with | ⟨0, _⟩ => rfl | ⟨1, _⟩ => rfl | ⟨2, _⟩ => rfl)

/-- The row maximum broadcast twice, at (b,h,q,k): the row's index (b,h,q). -/
theorem idx_v11_v12_ix (b : Fin 4) (h : Fin 8) (q k : Fin 2048) :
    idx_main_v11 (idx_main_v12 (ix4 b h q k)) = ix3 b h q :=
  funext fun a => Fin.ext (by match a with | ⟨0, _⟩ => rfl | ⟨1, _⟩ => rfl | ⟨2, _⟩ => rfl)

/-- The row sum broadcast twice, at (b,h,q,k): the row's index (b,h,q). -/
theorem idx_v16_v17_ix (b : Fin 4) (h : Fin 8) (q k : Fin 2048) :
    idx_main_v16 (idx_main_v17 (ix4 b h q k)) = ix3 b h q :=
  funext fun a => Fin.ext (by match a with | ⟨0, _⟩ => rfl | ⟨1, _⟩ => rfl | ⟨2, _⟩ => rfl)

/-- The summed operand of the row sum at (b,h,q), coordinate k: the index (b,h,q,k). -/
theorem idx_v15_ix (b : Fin 4) (h : Fin 8) (q k : Fin 2048) :
    idx_main_v15 (ix3 b h q) k = ix4 b h q k :=
  funext fun a => Fin.ext (by match a with | ⟨0, _⟩ => rfl | ⟨1, _⟩ => rfl | ⟨2, _⟩ => rfl | ⟨3, _⟩ => rfl)

/-- The second product's left operand at (b,h,q,d), contraction coordinate k: the weights' index (b,h,q,k). -/
theorem lidx_v19_ix (b : Fin 4) (h : Fin 8) (q : Fin 2048) (d : Fin 64) (k : Fin 2048) :
    lidx_main_v19 (ix4 b h q d) k = ix4 b h q k :=
  funext fun a => Fin.ext (by match a with | ⟨0, _⟩ => rfl | ⟨1, _⟩ => rfl | ⟨2, _⟩ => rfl | ⟨3, _⟩ => rfl)

/-- The second product's right operand at (b,h,q,d), contraction coordinate k: V's index (b,h,k,d). -/
theorem ridx_v19_ix (b : Fin 4) (h : Fin 8) (q : Fin 2048) (d : Fin 64) (k : Fin 2048) :
    ridx_main_v19 (ix4 b h q d) k = ix4 b h k d :=
  funext fun a => Fin.ext (by match a with | ⟨0, _⟩ => rfl | ⟨1, _⟩ => rfl | ⟨2, _⟩ => rfl | ⟨3, _⟩ => rfl)

/-- The row index (b,h,q) with the coordinate k inserted on the reduced last axis: the index (b,h,q,k). -/
theorem lift_ix (hR : S4x8x2048x2048.Reduces [3] S4x8x2048) (b : Fin 4) (h : Fin 8) (q k : Fin 2048) :
    hR.lift (ix3 b h q) k = ix4 b h q k :=
  funext fun a => Fin.ext (by match a with | ⟨0, _⟩ => rfl | ⟨1, _⟩ => rfl | ⟨2, _⟩ => rfl | ⟨3, _⟩ => rfl)

/-! ## The stages -/

/-- The scores: the product of Q and K rows, times the scale, plus the bias. -/
theorem score_apply (Q K : FVec Ideal S4x8x2048x64 .f32) (B : FVec Ideal S8x2048x2048 .f32) (b : Fin 4) (h : Fin 8)
    (q k : Fin 2048) :
    Read.val_main_v7 (F := Ideal) Q K B (ix4 b h q k) = scores scaleRef Q K B b h q k := by
  rw [val_main_v7_apply, val_main_v4_apply, val_main_v2_apply, val_main_v3_apply, val_main_v1_apply, val_main_v0_apply,
    val_main_cst_apply, val_main_cst_0_apply, val_main_v6_apply, val_main_v5_apply, idx_v5_v6_ix]
  simp only [lidx_v2_ix, ridx_v2_ix]
  rfl

/-- The row maximum: the fold of max from -inf over the row, taken once more against -inf. -/
theorem max_apply (Q K : FVec Ideal S4x8x2048x64 .f32) (B : FVec Ideal S8x2048x2048 .f32) (b : Fin 4) (h : Fin 8)
    (q : Fin 2048) :
    Read.val_main_v10 (F := Ideal) Q K B (ix3 b h q) = refMax (scores scaleRef Q K B b h q) := by
  rw [val_main_v10_apply, val_main_v9_apply, val_main_cst_2_apply]
  unfold val_main_v8
  change max _ (Host.reduce (max : EReal → EReal → EReal) (val_main_v7 (F := Ideal) Q K B) (val_main_cst_1 (F := Ideal))
    reducesTo_S4x8x2048x2048_S4x8x2048_d3 h_S_ (ix3 b h q)) = _
  rw [Host.reduce_eq_fold_single (max : EReal → EReal → EReal) _ _ reducesTo_S4x8x2048x2048_S4x8x2048_d3
    (by decide : S4x8x2048x2048.Reduces [3] S4x8x2048) h_S_]
  have e : (val_main_v7 (F := Ideal) Q K B ∘ (by decide : S4x8x2048x2048.Reduces [3] S4x8x2048).lift (ix3 b h q))
      = scores scaleRef Q K B b h q := funext fun k => by
    exact (congrArg (val_main_v7 (F := Ideal) Q K B) (lift_ix _ b h q k)).trans (score_apply Q K B b h q k)
  rw [e]
  rfl

/-- The exponentials: exp of the score less the row maximum. -/
theorem exp_apply (Q K : FVec Ideal S4x8x2048x64 .f32) (B : FVec Ideal S8x2048x2048 .f32) (b : Fin 4) (h : Fin 8)
    (q k : Fin 2048) :
    Read.val_main_v14 (F := Ideal) Q K B (ix4 b h q k) = refExp (scores scaleRef Q K B b h q) k := by
  rw [val_main_v14_apply, val_main_v13_apply, val_main_v12_apply, val_main_v11_apply, idx_v11_v12_ix, max_apply, score_apply]
  rfl

/-- The row sum: the word 0 plus the sum of the exponentials. -/
theorem sum_apply (Q K : FVec Ideal S4x8x2048x64 .f32) (B : FVec Ideal S8x2048x2048 .f32) (b : Fin 4) (h : Fin 8)
    (q : Fin 2048) :
    Read.val_main_v15 (F := Ideal) Q K B (ix3 b h q) = refSum (scores scaleRef Q K B b h q) := by
  rw [val_main_v15_apply, val_main_cst_3_apply]
  unfold refSum
  refine congrArg (_ + ·) (Finset.sum_congr rfl fun k _ => ?_)
  rw [idx_v15_ix, exp_apply]

/-- The weights: each exponential divided by the row sum. -/
theorem weights_apply (Q K : FVec Ideal S4x8x2048x64 .f32) (B : FVec Ideal S8x2048x2048 .f32) (b : Fin 4) (h : Fin 8)
    (q k : Fin 2048) :
    Read.val_main_v18 (F := Ideal) Q K B (ix4 b h q k) = refW (scores scaleRef Q K B b h q) k := by
  rw [val_main_v18_apply, val_main_v17_apply, val_main_v16_apply, idx_v16_v17_ix, sum_apply, exp_apply]
  rfl

/-- The output: the weights summed against a value column. -/
theorem output_apply (Q K V : FVec Ideal S4x8x2048x64 .f32) (B : FVec Ideal S8x2048x2048 .f32) (b : Fin 4) (h : Fin 8)
    (q : Fin 2048) (d : Fin 64) :
    Read.val_main_v19 (F := Ideal) Q K V B (ix4 b h q d) = refOut (scores scaleRef Q K B b h q) (vcol V b h d) := by
  rw [val_main_v19_apply]
  unfold refOut
  refine Finset.sum_congr rfl fun k _ => ?_
  rw [lidx_v19_ix, ridx_v19_ix, weights_apply]
  rfl

end Cert.Attn.Ref

end
-- ==== Proof.RowAlgebra.lean ====
/-
  The row algebra of softmax attention on the extended reals.

  For a row of REAL scores s (every entry the coercion of a real), over a nonempty set of keys:
    * the maximum m folded from -inf is a real, and taking it once more against -inf changes nothing;
    * p k = exp (s k - m) is a positive real, so the normaliser l = ∑ k, p k is a positive real, l ≠ 0;
    * hence the quotient p k / l is the product p k * (1 / l), and
      ∑ k, (p k / l) * v k = (∑ k, p k * v k) * (1 / l)  for a real column v (distributivity in ℝ).
  Also: the scale 1 / sqrt 64 is the word 1/8, and a score built from real entries is real.
-/
import proofs.«157557_j28578712387681_2_alg».proof.Proof.Spec
import Idealize.ShloMosaic.PureOps.Ideal

noncomputable section

namespace Cert.Attn

open Idealize.ShloMosaic

variable {n : ℕ}

/-! ## The float words as extended reals -/

/-- The pattern of -inf denotes the bottom element. -/
theorem word_neg_inf : Ideal.ofBits .f32 0xFF800000#32 = ⊥ := by
  simp [Ideal.ofBits, Ideal.ieee]

/-- The pattern of +0.0 denotes 0. -/
theorem word_zero : Ideal.ofBits .f32 0x00000000#32 = 0 := by
  simp [Ideal.ofBits, Ideal.ieee]

/-- The pattern of 1.0 denotes 1. -/
theorem word_one : Ideal.ofBits .f32 0x3F800000#32 = 1 := by
  simp [Ideal.ofBits, Ideal.ieee, -EReal.coe_mul]; norm_num

/-- The pattern of 64.0 denotes the real 64. -/
theorem word_sixty_four : Ideal.ofBits .f32 0x42800000#32 = ((64 : ℝ) : EReal) := by
  simp [Ideal.ofBits, Ideal.ieee, -EReal.coe_mul]; norm_num

/-- The pattern of 0.125 denotes the real 1/8. -/
theorem word_eighth : Ideal.ofBits .f32 0x3E000000#32 = ((1 / 8 : ℝ) : EReal) := by
  simp [Ideal.ofBits, Ideal.ieee, -EReal.coe_mul]; norm_num

/-! ## Coercion of a finite sum -/

/-- The coercion of a finite real sum is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-! ## The maximum -/

/-- The word -inf is the bottom of the extended reals, and any fold of max is at least its initial value,
    so the second max against the initial value changes nothing. -/
theorem refMax_eq (s : Fin n → EReal) : refMax s = rowMax s :=
  max_eq_right ((Finset.le_fold_max _).mpr (Or.inl le_rfl))

/-- The fold of max from the bottom over a nonempty finite set of reals is a real. -/
theorem fold_max_real {ι : Type*} (r : ι → ℝ) (t : Finset ι) (ht : t.Nonempty) :
    ∃ x : ℝ, t.fold max ⊥ (fun i => (r i : EReal)) = (x : EReal) := by
  induction ht using Finset.Nonempty.cons_induction with
  | singleton a => exact ⟨r a, by rw [Finset.fold_singleton]; exact max_bot_right _⟩
  | cons a t ha hne ih =>
    obtain ⟨x, hx⟩ := ih
    exact ⟨max (r a) x, by rw [Finset.fold_cons, hx]; exact (EReal.coe_strictMono.monotone.map_max).symm⟩

theorem rowMax_real (hn : 0 < n) (s : Fin n → EReal) (hs : ∀ k, ∃ r : ℝ, s k = (r : EReal)) :
    ∃ r : ℝ, rowMax s = (r : EReal) := by
  choose r hr using hs
  have hs' : s = fun k => (r k : EReal) := funext hr
  haveI : Nonempty (Fin n) := ⟨⟨0, hn⟩⟩
  rw [rowMax, word_neg_inf, hs']
  exact fold_max_real r Finset.univ Finset.univ_nonempty

/-! ## The unnormalised weights and the normaliser are positive reals -/

/-- Real witnesses for a row of real scores: p k = exp (s k - m) > 0 and l = ∑ k, p k > 0. -/
theorem row_witness (hn : 0 < n) (s : Fin n → EReal) (hs : ∀ k, ∃ r : ℝ, s k = (r : EReal)) :
    ∃ p : Fin n → ℝ, (∀ k, rowExp s k = (p k : EReal)) ∧ (∀ k, 0 < p k) ∧
      rowSum s = ((∑ k, p k : ℝ) : EReal) ∧ 0 < ∑ k, p k := by
  obtain ⟨m, hm⟩ := rowMax_real hn s hs
  choose r hr using hs
  have hp : ∀ k, rowExp s k = ((Real.exp (r k - m) : ℝ) : EReal) := by
    intro k
    rw [rowExp, hr k, hm, ← EReal.coe_sub, Ideal.exp_coe]
  refine ⟨fun k => Real.exp (r k - m), hp, fun k => Real.exp_pos _, ?_, ?_⟩
  · rw [rowSum, coe_sum]
    exact Finset.sum_congr rfl (fun k _ => hp k)
  · haveI : Nonempty (Fin n) := ⟨⟨0, hn⟩⟩
    exact Finset.sum_pos (fun k _ => Real.exp_pos _) Finset.univ_nonempty

/-! ## The two spellings agree -/

theorem refExp_eq (s : Fin n → EReal) (k : Fin n) : refExp s k = rowExp s k := by
  rw [refExp, refMax_eq, rowExp]

/-- The sum from the initial word 0 is the sum. -/
theorem refSum_eq (s : Fin n → EReal) : refSum s = rowSum s := by
  rw [refSum, word_zero, zero_add, rowSum]
  exact Finset.sum_congr rfl (fun k _ => refExp_eq s k)

/-- The reciprocal of a nonzero real normaliser. -/
theorem rowInv_eq (s : Fin n → EReal) {l : ℝ} (hl : rowSum s = (l : EReal)) (hl0 : l ≠ 0) :
    rowInv s = ((1 / l : ℝ) : EReal) := by
  rw [rowInv, hl, Ideal.div_coe hl0, word_one, one_mul]

theorem refW_eq (hn : 0 < n) (s : Fin n → EReal) (hs : ∀ k, ∃ r : ℝ, s k = (r : EReal)) (k : Fin n) :
    refW s k = rowW s k := by
  obtain ⟨p, _, _, hsum, hsumpos⟩ := row_witness hn s hs
  have hl0 : (∑ j, p j) ≠ 0 := hsumpos.ne'
  rw [refW, refExp_eq, refSum_eq, hsum, Ideal.div_coe hl0, rowW, rowInv_eq s hsum hl0]

theorem refOut_eq (hn : 0 < n) (s v : Fin n → EReal) (hs : ∀ k, ∃ r : ℝ, s k = (r : EReal))
    (hv : ∀ k, ∃ r : ℝ, v k = (r : EReal)) : refOut s v = rowOut s v := by
  obtain ⟨p, hp, _, hsum, hsumpos⟩ := row_witness hn s hs
  choose u hu using hv
  have hl0 : (∑ j, p j) ≠ 0 := hsumpos.ne'
  have hinv := rowInv_eq s hsum hl0
  have h1 : refOut s v = ((∑ k, p k * (1 / ∑ j, p j) * u k : ℝ) : EReal) := by
    rw [refOut, coe_sum]
    refine Finset.sum_congr rfl (fun k _ => ?_)
    rw [refW_eq hn s hs k, rowW, hp k, hinv, hu k, ← EReal.coe_mul, ← EReal.coe_mul]
  have h2 : rowOut s v = (((∑ k, p k * u k) * (1 / ∑ j, p j) : ℝ) : EReal) := by
    have h3 : (∑ k, rowExp s k * v k) = ((∑ k, p k * u k : ℝ) : EReal) := by
      rw [coe_sum]
      exact Finset.sum_congr rfl (fun k _ => by rw [hp k, hu k, EReal.coe_mul])
    rw [rowOut, hinv, h3, ← EReal.coe_mul]
  rw [h1, h2]
  refine congrArg (fun x : ℝ => (x : EReal)) ?_
  rw [Finset.sum_mul]
  exact Finset.sum_congr rfl (fun k _ => by ring)

/-! ## The scale and the scores -/

/-- 1 / sqrt 64 = 1/8 on the words: sqrt 64 = 8 since 64 = 8². -/
theorem scale_eq :
    Ideal.div (Ideal.ofBits .f32 0x3F800000#32) (Ideal.sqrt (Ideal.ofBits .f32 0x42800000#32))
      = Ideal.ofBits .f32 0x3E000000#32 := by
  have h8 : Real.sqrt 64 = 8 := by
    rw [show (64 : ℝ) = 8 ^ 2 by norm_num]
    exact Real.sqrt_sq (by norm_num)
  rw [word_sixty_four, Ideal.sqrt_coe, if_neg (by norm_num), h8,
    Ideal.div_coe (by norm_num : (8 : ℝ) ≠ 0), word_one, one_mul, word_eighth]

/-- A score of real entries is real. -/
theorem score_real {D : ℕ} (q k : Fin D → EReal) (b : EReal) (hq : ∀ d, ∃ r : ℝ, q d = (r : EReal))
    (hk : ∀ d, ∃ r : ℝ, k d = (r : EReal)) (hb : ∃ r : ℝ, b = (r : EReal)) :
    ∃ r : ℝ, (∑ d, q d * k d) * Ideal.ofBits .f32 0x3E000000#32 + b = (r : EReal) := by
  choose a ha using hq
  choose c hc using hk
  obtain ⟨b', rfl⟩ := hb
  have h : (∑ d, q d * k d) = ((∑ d, a d * c d : ℝ) : EReal) := by
    rw [coe_sum]
    exact Finset.sum_congr rfl (fun d _ => by rw [ha d, hc d, EReal.coe_mul])
  exact ⟨(∑ d, a d * c d) * (1 / 8) + b', by rw [h, word_eighth, ← EReal.coe_mul, ← EReal.coe_add]⟩

end Cert.Attn

end
-- ==== Proof.RefBridge.lean ====
/-
  The reference's two results are the reciprocal spelling's arrays, when every input entry is a real.

  Read at an index (b,h,q,·), the reference's weights and output are the quotient spelling of the row softmax over the score
  row  s k = (∑ d, Q[b,h,q,d] * K[b,h,k,d]) * c + bias[h,q,k]  with the scale  c = 1 / sqrt 64.  That scale is the word 1/8,
  every score of real inputs is a real, and for a row of real scores (there are 2048 > 0 keys) the quotient spelling and
  the reciprocal spelling agree: p k / l = p k * (1 / l) and ∑ k, (p k / l) * v k = (∑ k, p k * v k) * (1 / l), the
  normaliser l being a positive real. So the two arrays are GW and GO, entry by entry.
-/
import proofs.«157557_j28578712387681_2_alg».proof.Proof.RefIsSpec
import proofs.«157557_j28578712387681_2_alg».proof.Proof.RowAlgebra
import proofs.«157557_j28578712387681_2_alg».proof.Proof.Spec

noncomputable section

namespace Cert.Attn.Ref

open Idealize.ShloMosaic Idealize.ShloMosaic.ValueIdx Cert.ReferenceIdeal Cert.ReferenceIdeal.Gen Cert.ReferenceIdeal.Read Cert.Attn

/-- The reference's scale 1 / sqrt 64 is the word 1/8. -/
theorem scaleRef_eq : scaleRef = Ideal.ofBits .f32 0x3E000000#32 := scale_eq

/-- Every score of real inputs, at the scale 1/8, is a real. -/
theorem scores_real (Q K : FVec Ideal S4x8x2048x64 .f32) (B : FVec Ideal S8x2048x2048 .f32)
    (hQ : ∀ i, ∃ r : ℝ, Q i = (r : EReal)) (hK : ∀ i, ∃ r : ℝ, K i = (r : EReal)) (hB : ∀ i, ∃ r : ℝ, B i = (r : EReal))
    (b : Fin 4) (h : Fin 8) (q k : Fin 2048) :
    ∃ r : ℝ, scores (Ideal.ofBits .f32 0x3E000000#32) Q K B b h q k = (r : EReal) :=
  score_real (fun d : Fin 64 => Q (ix4 b h q d)) (fun d : Fin 64 => K (ix4 b h k d)) (B (ix3 h q k))
    (fun d => hQ (ix4 b h q d)) (fun d => hK (ix4 b h k d)) (hB (ix3 h q k))

/-- The reference's weights are the array GW. -/
theorem weights_eq (Q K : FVec Ideal S4x8x2048x64 .f32) (B : FVec Ideal S8x2048x2048 .f32)
    (hQ : ∀ i, ∃ r : ℝ, Q i = (r : EReal)) (hK : ∀ i, ∃ r : ℝ, K i = (r : EReal)) (hB : ∀ i, ∃ r : ℝ, B i = (r : EReal)) :
    Read.val_main_v18 (F := Ideal) Q K B = GW Q K B := by
  funext i
  obtain ⟨b, h, q, k, rfl⟩ : ∃ (b : Fin 4) (h : Fin 8) (q k : Fin 2048), i = ix4 b h q k :=
    ⟨i 0, i 1, i 2, i 3, eq_ix4 i⟩
  rw [weights_apply, scaleRef_eq, GW_ix]
  exact refW_eq (by norm_num) _ (fun k' => scores_real Q K B hQ hK hB b h q k') k

/-- The reference's output is the array GO. -/
theorem output_eq (Q K V : FVec Ideal S4x8x2048x64 .f32) (B : FVec Ideal S8x2048x2048 .f32)
    (hQ : ∀ i, ∃ r : ℝ, Q i = (r : EReal)) (hK : ∀ i, ∃ r : ℝ, K i = (r : EReal)) (hV : ∀ i, ∃ r : ℝ, V i = (r : EReal))
    (hB : ∀ i, ∃ r : ℝ, B i = (r : EReal)) :
    Read.val_main_v19 (F := Ideal) Q K V B = GO Q K V B := by
  funext i
  obtain ⟨b, h, q, d, rfl⟩ : ∃ (b : Fin 4) (h : Fin 8) (q : Fin 2048) (d : Fin 64), i = ix4 b h q d :=
    ⟨i 0, i 1, i 2, i 3, eq_ix4 i⟩
  rw [output_apply, scaleRef_eq, GO_ix]
  exact refOut_eq (by norm_num) _ _ (fun k' => scores_real Q K B hQ hK hB b h q k') (fun k' => hV (ix4 b h k' d))

end Cert.Attn.Ref

end
-- ==== Proof.Finite.lean ====
/-
  The precondition "every float input is finite", read back as a statement about the entries.

  For each argument array x the precondition computes  all (|x| < +inf):  the absolute value at every entry, compared
  against the word 0x7F800000 broadcast over the array, and the comparisons reduced by `and` over every axis from the
  constant 1; the four results are joined by `and`. On the extended reals |x| is  max x (-x),  the word 0x7F800000 is ⊤,
  and  max x (-x) < ⊤  fails at both infinities (there the maximum is ⊤) and holds at every real number. So the
  precondition being 1 says that every entry of every argument is (the coercion of) a real number.
-/
import proofs.«157557_j28578712387681_2_alg».proof.Pre_finite_inputs
import Idealize.ShloMosaic.PureOps.Ideal
import Idealize.ShloMosaic.Lib.ReduceAll
import Idealize.ShloMosaic.Lib.ValueIdx

noncomputable section

namespace Cert.Attn

open Idealize.ShloMosaic

/-- The word 0x7F800000 (sign 0, exponent all ones, significand 0) is +inf. -/
theorem inf_word : Ideal.ofBits .f32 0x7F800000#32 = (⊤ : EReal) := by
  simp [Ideal.ofBits, Ideal.ieee]

/-- A one-bit word made from a Boolean is 1 exactly when the Boolean is true. -/
theorem ofBool_one {b : Bool} (h : BitVec.ofBool b = 1#1) : b = true := by
  cases b
  · exact absurd h (by decide)
  · rfl

/-- An extended real whose absolute value  max x (-x)  lies strictly below ⊤ is a real number:
    at ⊤ the maximum is ⊤ itself, at ⊥ it is -⊥ = ⊤. -/
theorem real_of_abs_lt_top (x : EReal) (h : max x (-x) < ⊤) : ∃ r : ℝ, x = (r : EReal) := by
  obtain ⟨h1, h2⟩ := max_lt_iff.1 h
  induction x using EReal.rec with
  | bot => exact absurd h2 (by simp)
  | coe r => exact ⟨r, rfl⟩
  | top => exact absurd h1 (lt_irrefl _)

/-- The scalar shape has one index. -/
instance : Subsingleton Cert.Pre_finite_inputs.S_.Idx := ⟨fun a b => funext fun d => d.elim0⟩

/-- One argument array, of any shape: if  all (|x| < +inf)  — the comparison against the broadcast word 0x7F800000,
    reduced by `and` over all axes into the scalar shape — is 1, then every entry of x is a real number. -/
theorem real_of_all_finite {s : Shape} {axes : List (Fin s.rank)}
    (dims : Fin Cert.Pre_finite_inputs.S_.rank → Fin s.rank)
    (hb : Cert.Pre_finite_inputs.S_.BroadcastsInDim s dims)
    (hr : s.ReducesTo axes Cert.Pre_finite_inputs.S_) (hu : 0 < Cert.Pre_finite_inputs.S_.numel)
    (x : FVec Ideal s .f32)
    (e : Host.reduce IntOp.andi
          (cmpf .olt (Host.absf x)
            (broadcastInDim s dims hb (constant (F := Ideal) Cert.Pre_finite_inputs.S_ .f32 0x7F800000#32)))
          (constantI Cert.Pre_finite_inputs.S_ 1 1#1) hr hu ValueIdx.ix0 = 1#1) :
    ∀ i, ∃ r : ℝ, x i = (r : EReal) := by
  intro i
  -- every comparison that reduces into the one result is 1
  have h1 := Host.reduce_andi_all _ _ hr hu ValueIdx.ix0 e i
  -- at the index i the comparison is  max (x i) (-(x i)) < (the word 0x7F800000)
  have h2 : Ideal.cmp .olt (max (x i) (-(x i))) (Ideal.ofBits .f32 0x7F800000#32) = 1#1 := h1
  rw [inf_word] at h2
  have h3 : max (x i) (-(x i)) < (⊤ : EReal) := of_decide_eq_true (ofBool_one h2)
  exact real_of_abs_lt_top (x i) h3

open Idealize.ShloMosaic in
/-- The precondition is 1: every entry of each of the four argument arrays is a real number. -/
theorem real_of_finite [Cert.Pre_finite_inputs.Facts]
    (a0 a1 a2 : FVec Ideal Cert.Pre_finite_inputs.S4x8x2048x64 .f32) (a3 : FVec Ideal Cert.Pre_finite_inputs.S8x2048x2048 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  -- the result is ((r0 and r1) and r2) and r3, one conjunction over all entries per argument
  obtain ⟨h012, e3⟩ := IntOp.andi_eq_one.1 h0
  obtain ⟨h01, e2⟩ := IntOp.andi_eq_one.1 h012
  obtain ⟨e0, e1⟩ := IntOp.andi_eq_one.1 h01
  exact ⟨real_of_all_finite _ _ _ _ a0 e0, real_of_all_finite _ _ _ _ a1 e1,
    real_of_all_finite _ _ _ _ a2 e2, real_of_all_finite _ _ _ _ a3 e3⟩

end Cert.Attn

end
-- ==== Proof.lean ====
/-
  Scaled dot-product attention with an additive bias: the kernel against its reference, on the extended reals.

  Inputs Q, K, V of shape [4, 8, 2048, 64] (batch, head, position, feature) and a bias [8, 2048, 2048] (head, query, key).
  Both programs return, for every (batch b, head h, query q),
      the weights   softmax over the keys k of   s k = (∑ d, Q[b,h,q,d] * K[b,h,k,d]) / 8 + bias[h,q,k],
      the output    ∑ k, weights k * V[b,h,k,d].
  The kernel works one (head, query tile of 512 rows, batch) at a time: it multiplies the exponentials p k = exp (s k - max s)
  by the reciprocal 1 / l of their row sum l, and scales the product of p with the values by the same reciprocal. The
  reference scales by 1 / sqrt 64, divides each exponential by l, and sums the quotients against the values.

  On the extended reals the two agree once every input entry is a real number (the precondition): then every score, the
  row's maximum, every exponential (positive) and the row sum (positive, so not zero) are real, where p / l = p * (1 / l)
  and (∑ k, (p k / l) * v k) = (∑ k, p k * v k) * (1 / l) hold by the field laws; and sqrt 64 = 8 exactly. At an infinite
  entry the distributive law fails, which is why the precondition is used.

  The parts: the two spellings named (Spec), their agreement on real rows (RowAlgebra), the precondition read as "every
  entry is real" (Finite), the reference's run read index by index as the quotient spelling (RefIsSpec) and hence as the
  arrays GW, GO (RefBridge), the kernel body's stores read entry by entry as the reciprocal spelling (KernelPay), and the
  grid's blocks assembled into GW, GO (Blocks). Here the five claims are put together. The frames of the two kernel programs
  and the reference's run are the generated modules'; the kernel's idealization rewrote nothing, so preserves is trivial.
-/
import proofs.«157557_j28578712387681_2_alg».proof.Defs
import proofs.«157557_j28578712387681_2_alg».proof.Proof.Gen.Kernel
import proofs.«157557_j28578712387681_2_alg».proof.Proof.Gen.Kernel.Skeleton
import proofs.«157557_j28578712387681_2_alg».proof.Proof.Gen.Kernel.Launch
import proofs.«157557_j28578712387681_2_alg».proof.Proof.Gen.Kernel.Points
import proofs.«157557_j28578712387681_2_alg».proof.Proof.Gen.Kernel.Frame
import proofs.«157557_j28578712387681_2_alg».proof.Proof.Gen.KernelIdeal
import proofs.«157557_j28578712387681_2_alg».proof.Proof.Gen.KernelIdeal.Skeleton
import proofs.«157557_j28578712387681_2_alg».proof.Proof.Gen.KernelIdeal.Launch
import proofs.«157557_j28578712387681_2_alg».proof.Proof.Gen.KernelIdeal.Points
import proofs.«157557_j28578712387681_2_alg».proof.Proof.Gen.KernelIdeal.Frame
import proofs.«157557_j28578712387681_2_alg».proof.Proof.Gen.ReferenceIdeal
import proofs.«157557_j28578712387681_2_alg».proof.Proof.Gen.Pre_finite_inputs
import proofs.«157557_j28578712387681_2_alg».proof.Proof.Gen.KernelIdeal.Value
import proofs.«157557_j28578712387681_2_alg».proof.Proof.Gen.ReferenceIdeal.Run
import proofs.«157557_j28578712387681_2_alg».proof.Proof.Gen.ReferenceIdeal.Read
import proofs.«157557_j28578712387681_2_alg».proof.Proof.Blocks
import proofs.«157557_j28578712387681_2_alg».proof.Proof.RefBridge
import proofs.«157557_j28578712387681_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the output at GO and the weights at GW of the (agreeing, real) argument arrays. -/
theorem algebraic : Cert.algebraic_KernelIdeal_ReferenceIdeal := by
  intro m ρ m' ρ' hpre hagree
  refine ⟨_, _, Cert.Attn.Blk.run m ρ, ?_⟩
  refine (θ_run Cert.ReferenceIdeal.defs _ _).mono (fun _ h c => ?_) (Cert.ReferenceIdeal.Value.run (F := Ideal) m' ρ')
  obtain ⟨hQ, hK, hV, hB⟩ := Cert.Attn.real_of_finite _ _ _ _ (hpre c)
  obtain ⟨a0, a1, a2, a3⟩ := hagree c
  refine ⟨(h c).1.trans ?_, (h c).2.1.trans ?_, (h c).2.2⟩
  · rw [a0, a1, a2, a3]
    exact (Cert.ReferenceIdeal.Read.val_main_v19_eq _ _ _ _).trans (Cert.Attn.Ref.output_eq _ _ _ _ hQ hK hV hB)
  · rw [a0, a1, a3]
    exact (Cert.ReferenceIdeal.Read.val_main_v18_eq _ _ _).trans (Cert.Attn.Ref.weights_eq _ _ _ hQ hK hB)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
